-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S1x202x4 : Shape := ⟨3, ![1, 202, 4]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S1x202x4 : S_.BroadcastsInDim S1x202x4 (![] : Fin 0 → Fin S1x202x4.rank)
  reducesTo_S1x202x4_S_d0_1_2 : S1x202x4.ReducesTo [0, 1, 2] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S8192x4096 .f32) (main_arg1 : FVec F S1x202x4 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S1x202x4 .f32 := Host.absf main_arg1
  let main_cst_0 : FVec F S_ .f32 := constant S_ .f32 0x7F800000#32
  let main_v5 : FVec F S1x202x4 .f32 := broadcastInDim S1x202x4 ![] bcast_S_S1x202x4 main_cst_0
  let main_v6 : IVec S1x202x4 1 := cmpf .olt main_v4 main_v5
  let main_c_1 : IVec S_ 1 := constantI S_ 1 1#1
  let main_v7 : IVec S_ 1 := (fun x v => Host.reduce IntOp.andi x v reducesTo_S1x202x4_S_d0_1_2 h_S_) main_v6 main_c_1
  let main_v8 : IVec S_ 1 := andi main_v3 main_v7
  let main_cst_2 : FVec F S_ .f32 := constant S_ .f32 0xBF800000#32
  let main_v9 : FVec F S8192x4096 .f32 := broadcastInDim S8192x4096 ![] bcast_S_S8192x4096 main_cst_2
  let main_v10 : IVec S8192x4096 1 := cmpf .oge main_arg0 main_v9
  let main_c_3 : IVec S_ 1 := constantI S_ 1 1#1
  let main_v11 : IVec S_ 1 := (fun x v => Host.reduce IntOp.andi x v reducesTo_S8192x4096_S_d0_1 h_S_) main_v10 main_c_3
  let main_v12 : IVec S_ 1 := andi main_v8 main_v11
  let main_cst_4 : FVec F S_ .f32 := constant S_ .f32 0x3F800000#32
  let main_v13 : FVec F S8192x4096 .f32 := broadcastInDim S8192x4096 ![] bcast_S_S8192x4096 main_cst_4
  let main_v14 : IVec S8192x4096 1 := cmpf .ole main_arg0 main_v13
  let main_c_5 : IVec S_ 1 := constantI S_ 1 1#1
  let main_v15 : IVec S_ 1 := (fun x v => Host.reduce IntOp.andi x v reducesTo_S8192x4096_S_d0_1 h_S_) main_v14 main_c_5
  fn_part1 (F := F) main_v12 main_v15
-- ==== Kernel.lean ====
abbrev S8192x4096 : Shape := ⟨2, ![8192, 4096]⟩
abbrev S1x202x4 : Shape := ⟨3, ![1, 202, 4]⟩
abbrev S8192x808 : Shape := ⟨2, ![8192, 808]⟩
abbrev S128x4096 : Shape := ⟨2, ![128, 4096]⟩
abbrev S128x808 : Shape := ⟨2, ![128, 808]⟩
abbrev S128x256 : Shape := ⟨2, ![128, 256]⟩
abbrev S1x1x128 : Shape := ⟨3, ![1, 1, 128]⟩
abbrev S128x128 : Shape := ⟨2, ![128, 128]⟩
abbrev S128x128x1 : Shape := ⟨3, ![128, 128, 1]⟩
abbrev S128x128x128 : Shape := ⟨3, ![128, 128, 128]⟩
abbrev S128x202 : Shape := ⟨2, ![128, 202]⟩
abbrev S202x4 : Shape := ⟨2, ![202, 4]⟩
abbrev S128x202x1 : Shape := ⟨3, ![128, 202, 1]⟩
abbrev S128x202x4 : Shape := ⟨3, ![128, 202, 4]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S1x202x4, .f32⟩
  | .hbm, ⟨2, _⟩ => ⟨S8192x808, .f32⟩
  | .local _ .vmem, ⟨0, _⟩ => ⟨S128x4096, .f32⟩
  | .local _ .vmem, ⟨1, _⟩ => ⟨S128x4096, .f32⟩
  | .local _ .vmem, ⟨2, _⟩ => ⟨S1x202x4, .f32⟩
  | .local _ .vmem, ⟨3, _⟩ => ⟨S128x808, .f32⟩
  | .local _ .vmem, ⟨4, _⟩ => ⟨S128x808, .f32⟩
  | .local _ .vmem, ⟨5, _⟩ => ⟨S128x256, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c32_i32 : BitVec 32 := 32#32
  let v10 : BitVec 32 := Scalar.addi c0_i32 c32_i32
  let c1_i32 : BitVec 32 := 1#32
  ⟨c0_i32, v10, c1_i32⟩
def k0_mult1 (k0_t1 : Fin k0_t1_loop.trips) : BitVec 32 :=
  let c0_i32_12 : BitVec 32 := 0#32
  let c0_i32 : BitVec 32 := 0#32
  let c1_i32 : BitVec 32 := 1#32
  let arg5 : BitVec 32 := Scf.iv c0_i32 c1_i32 k0_t1
  let c1_i32_11 : BitVec 32 := 1#32
  let v22 : BitVec 32 := Scalar.muli arg5 c1_i32_11
  let v23 : BitVec 32 := Scalar.addi c0_i32_12 v22
  let c128_i32 : BitVec 32 := 128#32
  let v24 : BitVec 32 := Scalar.muli v23 c128_i32
  v24
def k0_off1 (k0_t1 : Fin k0_t1_loop.trips) : Fin 2 → Nat :=
  let c0_13 : Index := 0#32
  let c0_i32_12 : BitVec 32 := 0#32
  let c0_i32 : BitVec 32 := 0#32
  let c1_i32 : BitVec 32 := 1#32
  let arg5 : BitVec 32 := Scf.iv c0_i32 c1_i32 k0_t1
  let c1_i32_11 : BitVec 32 := 1#32
  let v22 : BitVec 32 := Scalar.muli arg5 c1_i32_11
  let v23 : BitVec 32 := Scalar.addi c0_i32_12 v22
  let c128_i32 : BitVec 32 := 128#32
  let v24 : BitVec 32 := Scalar.muli v23 c128_i32
  let v25 : BitVec 32 := v24
  let v26 : Index := Scalar.indexCast v25
  ![0, v26.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x202x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x808 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S128x256_S128x256_0_0 : ∀ a, (![0, 0] : Fin 2 → Nat) a + S128x256.size a ≤ S128x256.size a
  h_S128x256 : 0 < S128x256.numel
  shapeCasts_S128x256_S128x256 : S128x256.ShapeCasts S128x256
  iota_S1x1x128_d2_w32 : S1x1x128.Iotas .tc 32 [2]
  h_S128x128 : 0 < S128x128.numel
  bitsLt_bf16_f32 : FTy.bits .bf16 < FTy.bits .f32
  shapeCasts_S128x128_S128x128x1 : S128x128.ShapeCasts S128x128x1
  broadcasts_S128x128x1_S128x128x128 : S128x128x1.Broadcasts S128x128x128
  broadcasts_S1x1x128_S128x128x128 : S1x1x128.Broadcasts S128x128x128
  natLt_1_32 : 1 < 32
  reduces_S128x128x128_S128x128 : S128x128x128.Reduces [1] S128x128
  inb_S128x256_S128x128_0_0 : ∀ a, (![0, 0] : Fin 2 → Nat) a + S128x128.size a ≤ S128x256.size a
  shapeCasts_S128x128_S128x128 : S128x128.ShapeCasts S128x128
  inb_S128x256_S128x128_0_128 : ∀ a, (![0, 128] : Fin 2 → Nat) a + S128x128.size a ≤ S128x256.size a
  inb_S128x256_S128x202_0_0 : ∀ a, (![0, 0] : Fin 2 → Nat) a + S128x202.size a ≤ S128x256.size a
  h_S128x202 : 0 < S128x202.numel
  inb_S1x202x4_S1x202x4_0_0_0 : ∀ a, (![0, 0, 0] : Fin 3 → Nat) a + S1x202x4.size a ≤ S1x202x4.size a
  h_S1x202x4 : 0 < S1x202x4.numel
  shapeCasts_S1x202x4_S202x4 : S1x202x4.ShapeCasts S202x4
  shapeCasts_S128x202_S128x202x1 : S128x202.ShapeCasts S128x202x1
  shapeCasts_S202x4_S1x202x4 : S202x4.ShapeCasts S1x202x4
  broadcasts_S128x202x1_S128x202x4 : S128x202x1.Broadcasts S128x202x4
  broadcasts_S1x202x4_S128x202x4 : S1x202x4.Broadcasts S128x202x4
  shapeCasts_S128x202x4_S128x808 : S128x202x4.ShapeCasts S128x808
  inb_S128x808_S128x808_0_0 : ∀ a, (![0, 0] : Fin 2 → Nat) a + S128x808.size a ≤ S128x808.size a
  h_S128x808 : 0 < S128x808.numel
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S128x128.size a ≤ S128x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S8192x4096.size a
  hwx0_0 : ∀ i : grid0.Coords, EltTy.bits .f32 = 32 ∨ (Rect.block (s := S8192x4096) S128x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x202x4.size a ≤ S1x202x4.size a
  hwx0_1 : ∀ i : grid0.Coords, EltTy.bits .f32 = 32 ∨ (Rect.block (s := S1x202x4) S1x202x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x808.size a ≤ S8192x808.size a
  hwx0_2 : ∀ i : grid0.Coords, EltTy.bits .f32 = 32 ∨ (Rect.block (s := S8192x808) S128x808.size (cc0_transform_2 i) (hinb0_2 i)).WholeWords (EltTy.packing .f32)

variable [Facts₀]

abbrev win0_0 : Pipeline.Window sig grid0 :=
  Pipeline.Window.ofSpec (Memref.whole main_arg0) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x202x4.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x808.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S1x202x4 : Shape := ⟨3, ![1, 202, 4]⟩
abbrev S_ : Shape := ⟨0, ![]⟩
abbrev S8192 : Shape := ⟨1, ![8192]⟩
abbrev S8192x1 : Shape := ⟨2, ![8192, 1]⟩
abbrev S8192x202 : Shape := ⟨2, ![8192, 202]⟩
abbrev S8192x4096x1 : Shape := ⟨3, ![8192, 4096, 1]⟩
abbrev S8192x4096x2 : Shape := ⟨3, ![8192, 4096, 2]⟩
abbrev S8192x202x1 : Shape := ⟨3, ![8192, 202, 1]⟩
abbrev S8192x202x4 : Shape := ⟨3, ![8192, 202, 4]⟩
abbrev S8192x808 : Shape := ⟨2, ![8192, 808]⟩

abbrev nBuf : Space → Nat
  | .hbm => 41
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1x202x4, .f32⟩
  | .hbm, ⟨2, _⟩ => ⟨S_, .f32⟩
  | .hbm, ⟨3, _⟩ => ⟨S8192x4096, .f32⟩
  | .hbm, ⟨4, _⟩ => ⟨S8192x4096, .f32⟩
  | .hbm, ⟨5, _⟩ => ⟨S8192x4096, .f32⟩
  | .hbm, ⟨6, _⟩ => ⟨S8192x4096, .i32⟩
  | .hbm, ⟨7, _⟩ => ⟨S_, .i32⟩
  | .hbm, ⟨8, _⟩ => ⟨S8192x4096, .i32⟩
  | .hbm, ⟨9, _⟩ => ⟨S8192x4096, .i32⟩
  | .hbm, ⟨10, _⟩ => ⟨S8192, .i32⟩
  | .hbm, ⟨11, _⟩ => ⟨S8192x1, .i32⟩
  | .hbm, ⟨12, _⟩ => ⟨S_, .f32⟩
  | .hbm, ⟨13, _⟩ => ⟨S8192x202, .f32⟩
  | .hbm, ⟨14, _⟩ => ⟨S_, .i32⟩
  | .hbm, ⟨15, _⟩ => ⟨S8192x1, .i32⟩
  | .hbm, ⟨16, _⟩ => ⟨S8192x1, .i1⟩
  | .hbm, ⟨17, _⟩ => ⟨S_, .i32⟩
  | .hbm, ⟨18, _⟩ => ⟨S8192x1, .i32⟩
  | .hbm, ⟨19, _⟩ => ⟨S8192x1, .i32⟩
  | .hbm, ⟨20, _⟩ => ⟨S8192x1, .i32⟩
  | .hbm, ⟨21, _⟩ => ⟨S_, .i32⟩
  | .hbm, ⟨22, _⟩ => ⟨S8192x4096, .i32⟩
  | .hbm, ⟨23, _⟩ => ⟨S8192x4096, .i1⟩
  | .hbm, ⟨24, _⟩ => ⟨S_, .i32⟩
  | .hbm, ⟨25, _⟩ => ⟨S8192x4096, .i32⟩
  | .hbm, ⟨26, _⟩ => ⟨S8192x4096, .i32⟩
  | .hbm, ⟨27, _⟩ => ⟨S8192x4096, .i32⟩
  | .hbm, ⟨28, _⟩ => ⟨S8192x4096, .i32⟩
  | .hbm, ⟨29, _⟩ => ⟨S8192x4096x1, .i32⟩
  | .hbm, ⟨30, _⟩ => ⟨S8192x4096x1, .i32⟩
  | .hbm, ⟨31, _⟩ => ⟨S8192x4096x2, .i32⟩
  | .hbm, ⟨32, _⟩ => ⟨S_, .f32⟩
  | .hbm, ⟨33, _⟩ => ⟨S8192x4096, .f32⟩
  | .hbm, ⟨34, _⟩ => ⟨S8192x202, .f32⟩
  | .hbm, ⟨35, _⟩ => ⟨S8192x202, .f32⟩
  | .hbm, ⟨36, _⟩ => ⟨S8192x202x1, .f32⟩
  | .hbm, ⟨37, _⟩ => ⟨S8192x202x4, .f32⟩
  | .hbm, ⟨38, _⟩ => ⟨S8192x202x4, .f32⟩
  | .hbm, ⟨39, _⟩ => ⟨S8192x202x4, .f32⟩
  | .hbm, ⟨40, _⟩ => ⟨S8192x808, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_c_1 : Ref sig .tc := ⟨.hbm, 14, rfl⟩
abbrev main_v9 : Ref sig .tc := ⟨.hbm, 15, rfl⟩
abbrev main_v10 : Ref sig .tc := ⟨.hbm, 16, rfl⟩
abbrev main_c_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_3 : Ref sig .tc := ⟨.hbm, 21, rfl⟩
abbrev main_v14 : Ref sig .tc := ⟨.hbm, 22, rfl⟩
abbrev main_v15 : Ref sig .tc := ⟨.hbm, 23, rfl⟩
abbrev main_c_4 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]

class Facts₀ : Prop where
  bcast_S_S8192x4096 : S_.BroadcastsInDim S8192x4096 (![] : Fin 0 → Fin S8192x4096.rank)
  bcast_S8192_S8192x1_0 : S8192.BroadcastsInDim S8192x1 (![0] : Fin 1 → Fin S8192x1.rank)
  bcast_S_S8192x202 : S_.BroadcastsInDim S8192x202 (![] : Fin 0 → Fin S8192x202.rank)
  bcast_S_S8192x1 : S_.BroadcastsInDim S8192x1 (![] : Fin 0 → Fin S8192x1.rank)
  bcast_S8192x1_S8192x4096_0_1 : S8192x1.BroadcastsInDim S8192x4096 (![0, 1] : Fin 2 → Fin S8192x4096.rank)
  bcast_S8192x4096_S8192x4096x1_0_1 : S8192x4096.BroadcastsInDim S8192x4096x1 (![0, 1] : Fin 2 → Fin S8192x4096x1.rank)
  concatenates_S8192x4096x1_S8192x4096x1_S8192x4096x2_d2 : Shape.Concatenates [S8192x4096x1, S8192x4096x1] S8192x4096x2 2
  bcast_S8192x202_S8192x202x1_0_1 : S8192x202.BroadcastsInDim S8192x202x1 (![0, 1] : Fin 2 → Fin S8192x202x1.rank)
  bcast_S8192x202x1_S8192x202x4_0_1_2 : S8192x202x1.BroadcastsInDim S8192x202x4 (![0, 1, 2] : Fin 3 → Fin S8192x202x4.rank)
  bcast_S1x202x4_S8192x202x4_0_1_2 : S1x202x4.BroadcastsInDim S8192x202x4 (![0, 1, 2] : Fin 3 → Fin S8192x202x4.rank)
  shapeCasts_S8192x202x4_S8192x808 : S8192x202x4.ShapeCasts S8192x808
  scatter_S8192x202_S8192x4096x2_S8192x4096_n_01_01_2_wf : ScatterDims.WF S8192x202 S8192x4096x2 S8192x4096 [] [0, 1] [0, 1] 2

variable [Facts₀]

def scatter_S8192x202_S8192x4096x2_S8192x4096_n_01_01_2 : ScatterDims S8192x202 S8192x4096x2 S8192x4096 where
  updateWindowDims := []
  insertedWindowDims := [0, 1]
  scatterDimsToOperandDims := [0, 1]
  indexVectorDim := 2
  wf := scatter_S8192x202_S8192x4096x2_S8192x4096_n_01_01_2_wf

class Facts : Prop extends Facts₀ where

variable [Facts]
-- ==== Proof.Spec.lean ====
/-
  The row histogram both programs compute, as one function of the argument arrays on the extended reals.

  For a row `r` of `cos : [8192, 4096]` and a bucket `k` (a natural number), `count cos r k` is the number of
  columns `n` with `⌈100 · cos[r, n]⌉ + 100 = k`; the result at `[r, 4k + d]` is `log (1 + count cos r k) · emb[0, k, d]`.
  The literal `100` is kept as the f32 pattern both programs print.
-/
import Idealize.ShloMosaic.PureOps.Ideal
import Idealize.ShloMosaic.Lib.ValueIdx

noncomputable section

namespace Cert.Histogram

open Idealize.ShloMosaic Idealize.ShloMosaic.ValueIdx
open scoped BigOperators

/-- The shapes of the two arguments and of the result. -/
abbrev SCos : Shape := ⟨2, ![8192, 4096]⟩
abbrev SEmb : Shape := ⟨3, ![1, 202, 4]⟩
abbrev SOut : Shape := ⟨2, ![8192, 808]⟩

/-- The f32 pattern of `100.0`, as an extended real. -/
def c100 : EReal := Ideal.ofBits .f32 0x42C80000#32

/-- The bucket of a value: `⌈100 · x⌉ + 100` (the ceiling fixes the infinities). -/
def bucket (x : EReal) : EReal := Ideal.liftRound Int.ceil (x * c100) + c100

/-- Whether `x` falls in bucket `k`, as `1` or `0`. -/
def hit (x : EReal) (k : ℕ) : EReal := if bucket x = ((k : ℝ) : EReal) then 1 else 0

/-- The number of columns of row `r` whose value falls in bucket `k`. -/
def count (cos : SCos.Idx → EReal) (r : Fin 8192) (k : ℕ) : EReal :=
  ∑ n : Fin 4096, hit (cos (ix2 r n)) k

/-- The result array: at `[r, q]` with `q = 4k + d`, `log (1 + count r k) · emb[0, k, d]`. -/
def G (cos : SCos.Idx → EReal) (emb : SEmb.Idx → EReal) : SOut.Idx → EReal := fun i =>
  Ideal.log1p (count cos (i 0) ((i 1).val / 4))
    * emb (ix3 (0 : Fin 1) (⟨(i 1).val / 4, by have := (i 1).isLt; change (i 1).val < 808 at this; omega⟩ : Fin 202)
        (⟨(i 1).val % 4, Nat.mod_lt _ (by decide)⟩ : Fin 4))

end Cert.Histogram

end
-- ==== Proof.LibKeep.lean ====
/-
  Four layout steps around a kept unit axis, each read at an index written by coordinates: a matrix given a trailing
  axis of extent one and then repeated along it, and a column passed through rank 3 and back. A cast keeps the
  row-major position; a broadcast reads coordinate zero on an axis of extent one.
-/
import Idealize.ShloMosaic.Lib.Pipeline.Value
import Idealize.ShloMosaic.Lib.ValueIdx

namespace Idealize.ShloMosaic.ValueIdx

variable {α : Type}

/-- An [a, b] matrix cast to [a, b, 1] reads, at (i, j, u), the operand at (i, j): both have row-major
    position i · b + j. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An [a, b, 1] array broadcast to [a, b, c] reads, at (i, j, k), the operand at (i, j, 0). -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show (0 : ℕ) = if (1 : ℕ) = 1 then 0 else k.val
    rw [if_pos rfl]

/-- A column [a, 1] cast to [a, 1, 1] reads, at (i, u, v), the column's entry of row i. -/
theorem shapeCast_a1_a11_apply {a : ℕ} (x : (⟨2, ![a, 1]⟩ : Shape).Idx → α)
    (h : (⟨2, ![a, 1]⟩ : Shape).ShapeCasts ⟨3, ![a, 1, 1]⟩) (i : Fin a) (u v : Fin 1) :
    shapeCast ⟨3, ![a, 1, 1]⟩ x h (ix3 i u v) = x (ix2 i (0 : Fin 1)) :=
  shapeCast_apply x h _ _ (by
    have hu : u.val = 0 := by omega
    have hv : v.val = 0 := by omega
    rw [Shape.rowMajor_val_three, Shape.rowMajor_val_two]
    show i.val * 1 + 0 = (i.val * 1 + u.val) * 1 + v.val
    rw [hu, hv, Nat.mul_one, Nat.add_zero, Nat.mul_one, Nat.add_zero])

/-- An [a, 1, 1] array cast to the column [a, 1] reads, at (i, u), the operand at (i, 0, 0). -/
theorem shapeCast_a11_a1_apply {a : ℕ} (x : (⟨3, ![a, 1, 1]⟩ : Shape).Idx → α)
    (h : (⟨3, ![a, 1, 1]⟩ : Shape).ShapeCasts ⟨2, ![a, 1]⟩) (i : Fin a) (u : Fin 1) :
    shapeCast ⟨2, ![a, 1]⟩ x h (ix2 i u) = x (ix3 i (0 : Fin 1) (0 : Fin 1)) :=
  shapeCast_apply x h _ _ (by
    have hu : u.val = 0 := by omega
    rw [Shape.rowMajor_val_three, Shape.rowMajor_val_two]
    show (i.val * 1 + 0) * 1 + 0 = i.val * 1 + u.val
    rw [hu, Nat.add_zero, Nat.mul_one])

end Idealize.ShloMosaic.ValueIdx
-- ==== Proof.LibLayout.lean ====
/-
  Three layout operations read at an index, at rank 3, with every index written by its coordinates. A value that
  depends on the first and last coordinates only is laid out along a middle axis of extent one and then repeated along
  it; a value that depends on the last two coordinates only is given a leading axis of extent one and then repeated
  along that. Reading the result at `(i, j, k)` reads the operand at `(i, k)`, respectively `(j, k)`: a cast keeps
  the row-major position, and a broadcast reads coordinate zero on an axis of extent one.
-/
import Idealize.ShloMosaic.Lib.Pipeline.Value
import Idealize.ShloMosaic.Lib.ValueIdx
import Idealize.ShloMosaic.Lib.ValueLayout

namespace Idealize.ShloMosaic.ValueIdx

open Idealize.ShloMosaic

variable {α : Type}

/-- An `[a, c]` array cast to `[a, 1, c]` reads, at `(i, u, k)`, the operand at `(i, k)`: both have row-major
    position `i · c + k`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]
  | ⟨2, _⟩ =>
    show k.val = if c = 1 then 0 else k.val
    split
    · have := k.isLt; omega
    · rfl

/-- A `[1, b, c]` array broadcast to `[a, b, c]` reads, at `(i, j, k)`, the operand at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ =>
    show (0 : ℕ) = if (1 : ℕ) = 1 then 0 else i.val
    rw [if_pos rfl]
  | ⟨1, _⟩ =>
    show j.val = if b = 1 then 0 else j.val
    split
    · have := j.isLt; omega
    · rfl
  | ⟨2, _⟩ =>
    show k.val = if c = 1 then 0 else k.val
    split
    · have := k.isLt; omega
    · rfl

end Idealize.ShloMosaic.ValueIdx
-- ==== Proof.Payload.lean ====
/-
  The body's arithmetic at the extended reals, read at an index.

  Per 128-column chunk the body compares each entry's bucket `⌈100 x⌉ + 100` with the 128 lane numbers `l` (first
  half) and `128 + l` (second half), turns each comparison into `1` or `0`, sums over the chunk's columns and adds the
  sums to the running counts. After the chunks it multiplies `log (1 + count)` with the embedding row of the bucket.
-/
import proofs.«100158_j34325378629727_2_alg».proof.Proof.Gen.KernelIdeal.Skeleton
import proofs.«100158_j34325378629727_2_alg».proof.Proof.Spec
import proofs.«100158_j34325378629727_2_alg».proof.Proof.LibKeep
import proofs.«100158_j34325378629727_2_alg».proof.Proof.LibLayout
import Idealize.ShloMosaic.PureOps.Ideal.Laws
import Idealize.ShloMosaic.Lib.Pipeline.Value

noncomputable section

namespace Cert.Histogram

open Idealize.ShloMosaic Idealize.ShloMosaic.ValueIdx Cert.KernelIdeal Cert.KernelIdeal.Gen
open scoped BigOperators

/-! ## The bf16 patterns the lane vectors add -/

theorem bf16_zero : Ideal.ofBits .bf16 0x0000#16 = 0 := by
  simp [Ideal.ofBits, Ideal.ieee]

theorem bf16_128 : Ideal.ofBits .bf16 0x4300#16 = ((128 : ℝ) : EReal) := by
  simp [Ideal.ofBits, Ideal.ieee, -EReal.coe_mul]

/-! ## Layout steps of this body -/

/-- A lane vector `[1, 1, c]` broadcast to `[a, b, c]` reads, at `(i, j, k)`, the vector's entry `k`. -/
theorem broadcastTo_11c_abc_apply {α : Type} {a b c : ℕ} (v : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ v h (ix3 i j k) = v (ix3 (0 : Fin 1) (0 : Fin 1) k) := by
  refine broadcastTo_apply v h (ix3 i j k) (ix3 (0 : Fin 1) (0 : Fin 1) k) fun ax => ?_
  match ax with
  | ⟨0, _⟩ =>
    show (0 : ℕ) = if (1 : ℕ) = 1 then 0 else i.val
    rw [if_pos rfl]
  | ⟨1, _⟩ =>
    show (0 : ℕ) = if (1 : ℕ) = 1 then 0 else j.val
    rw [if_pos rfl]
  | ⟨2, _⟩ =>
    show k.val = if c = 1 then 0 else k.val
    split
    · have := k.isLt; omega
    · rfl

/-- The source index of the chunk sum: result index `(p, l)` with the summed coordinate `j` put back. -/
theorem lift_chunk (h : S128x128x128.Reduces [1] S128x128) (p l : Fin 128) (j : Fin 128) :
    h.lift (ix2 p l) j = ix3 p j l := by
  funext c
  match c with
  | ⟨0, _⟩ => exact Fin.ext rfl
  | ⟨1, _⟩ => exact Fin.ext rfl
  | ⟨2, _⟩ => exact Fin.ext rfl

/-- The sum over a chunk's columns, at `(p, l)`. -/
theorem chunk_sum (src : FVec Ideal S128x128x128 .f32) (h : S128x128x128.Reduces [1] S128x128) (hφ : FKind.Formats .f32)
    (hacc : (0x00000000#32 : BitVec 32) = 0x00000000#32) (p l : Fin 128) :
    multiReduction .add [1] S128x128 src 0x00000000#32 h hφ hacc (ix2 p l) = ∑ j : Fin 128, src (ix3 p j l) := by
  refine (Ideal.multiReduction_add_single src 0x00000000#32 h hφ hacc (ix2 p l)).trans ?_
  exact Finset.sum_congr rfl fun j _ => congrArg src (lift_chunk h p l j)

/-! ## The bucket of an entry and the lane numbers -/

/-- The entry's bucket, laid out `[128, 128, 1]`. -/
theorem pay3_apply (v27 : FVec Ideal S128x128 .f32) (p j : Fin 128) (u : Fin 1) :
    k0_pay3 (F := Ideal) v27 (ix3 p j u) = bucket (v27 (ix2 p j)) := by
  unfold k0_pay3
  exact shapeCast_ab_ab1_apply _ _ p j u

/-- Lane `l` of the lane-number vector is the number `l`. -/
theorem pay2_apply (l : Fin 128) :
    k0_pay2 (F := Ideal) (ix3 (0 : Fin 1) (0 : Fin 1) l) = ((l.val : ℝ) : EReal) := by
  unfold k0_pay2
  show FloatOps.sitofp (F := Ideal) .bf16 (iota .tc S1x1x128 32 [2] _ (ix3 (0 : Fin 1) (0 : Fin 1) l)) = _
  rw [iota_single_apply]
  show (((BitVec.ofNat 32 l.val).toInt : ℝ) : EReal) = _
  have hl : l.val < 128 := l.isLt
  have h2 : (BitVec.ofNat 32 l.val).toNat = l.val := by
    rw [BitVec.toNat_ofNat]; exact Nat.mod_eq_of_lt (by omega)
  have : (BitVec.ofNat 32 l.val).toInt = (l.val : ℤ) := by
    unfold BitVec.toInt; rw [h2]; split <;> omega
  rw [this]
  norm_cast

/-! ## One comparison as a number, and the two chunk payloads -/

/-- An equality test turned into a number: `1` where the two values are equal, `0` elsewhere. -/
theorem onehot_scalar (a b : EReal) :
    FloatOps.sitofp (F := Ideal) .f32 ((FloatOps.cmpf (F := Ideal) (φ := .bf16) .oeq a b).setWidth 32) = if a = b then 1 else 0 := by
  show ((((Ideal.cmp .oeq a b).setWidth 32).toInt : ℝ) : EReal) = _
  unfold Ideal.cmp
  by_cases h : a = b
  · simp [h]
  · simp [h]

/-- First half of the buckets: the running count of bucket `l` plus the chunk's entries of row `p` in bucket `l`. -/
theorem pay4_apply (v27 v41 : Vec Ideal S128x128 .f32) (p l : Fin 128) :
    k0_pay4 (F := Ideal) v27 v41 (ix2 p l) = v41 (ix2 p l) + ∑ j : Fin 128, hit (v27 (ix2 p j)) l.val := by
  unfold k0_pay4
  dsimp only
  rw [shapeCast_self]
  refine congrArg (v41 (ix2 p l) + ·) ?_
  refine (chunk_sum _ _ _ _ p l).trans ?_
  refine Finset.sum_congr rfl fun j _ => ?_
  refine (onehot_scalar _ _).trans ?_
  unfold hit
  rw [broadcastTo_ab1_abc_apply, pay3_apply, broadcastTo_11c_abc_apply]
  show (if bucket (v27 (ix2 p j)) = k0_pay2 (F := Ideal) (ix3 (0 : Fin 1) (0 : Fin 1) l) + Ideal.ofBits .bf16 0x0000#16 then (1 : EReal) else 0) = _
  rw [pay2_apply, bf16_zero, add_zero]

/-- Second half: the same with bucket `128 + l`. -/
theorem pay5_apply (v27 v52 : Vec Ideal S128x128 .f32) (p l : Fin 128) :
    k0_pay5 (F := Ideal) v27 v52 (ix2 p l) = v52 (ix2 p l) + ∑ j : Fin 128, hit (v27 (ix2 p j)) (128 + l.val) := by
  unfold k0_pay5
  dsimp only
  rw [shapeCast_self]
  refine congrArg (v52 (ix2 p l) + ·) ?_
  refine (chunk_sum _ _ _ _ p l).trans ?_
  refine Finset.sum_congr rfl fun j _ => ?_
  refine (onehot_scalar _ _).trans ?_
  unfold hit
  rw [broadcastTo_ab1_abc_apply, pay3_apply, broadcastTo_11c_abc_apply]
  show (if bucket (v27 (ix2 p j)) = k0_pay2 (F := Ideal) (ix3 (0 : Fin 1) (0 : Fin 1) l) + Ideal.ofBits .bf16 0x4300#16 then (1 : EReal) else 0) = _
  rw [pay2_apply, bf16_128]
  have e : ((l.val : ℝ) : EReal) + ((128 : ℝ) : EReal) = (((128 + l.val : ℕ) : ℝ) : EReal) := by
    rw [← EReal.coe_add]; norm_cast; ring_nf
  rw [e]

/-- The counts start at zero. -/
theorem pay1_apply (y : S128x256.Idx) : k0_pay1 (F := Ideal) y = 0 := by
  unfold k0_pay1
  rw [shapeCast_self]
  exact Ideal.ofBits_zero_f32

/-- The epilogue: at `(p, 4k + d)`, `log (1 + count k)` times `emb[0, k, d]`. -/
theorem pay6_apply (v11 : Vec Ideal S128x202 .f32) (v13 : Vec Ideal S1x202x4 .f32) (p : Fin 128) (q : Fin 808) :
    k0_pay6 (F := Ideal) v11 v13 (ix2 p q)
      = Ideal.log1p (v11 (ix2 p (⟨q.val / 4, by have := q.isLt; omega⟩ : Fin 202)))
        * v13 (ix3 (0 : Fin 1) (⟨q.val / 4, by have := q.isLt; omega⟩ : Fin 202) (⟨q.val % 4, Nat.mod_lt _ (by decide)⟩ : Fin 4)) := by
  unfold k0_pay6
  rw [shapeCast_shapeCast]
  refine (shapeCast_apply _ _ (ix2 p q)
    (ix3 p (⟨q.val / 4, by have := q.isLt; omega⟩ : Fin 202) (⟨q.val % 4, Nat.mod_lt _ (by decide)⟩ : Fin 4)) ?_).trans ?_
  · rw [Shape.rowMajor_val_three, Shape.rowMajor_val_two]
    show (p.val * 202 + q.val / 4) * 4 + q.val % 4 = p.val * 808 + q.val
    omega
  · rw [mulf_apply, broadcastTo_ab1_abc_apply, shapeCast_ab_ab1_apply, broadcastTo_1bc_abc_apply]
    rfl

end Cert.Histogram

end
-- ==== Proof.Scratch.lean ====
/-
  The running counts in the scratch buffer, trip by trip.

  One trip of the chunk loop reads the 128 columns `[128 k, 128 k + 128)` of the input block and adds, to the count of
  every bucket `q < 256` of every row `p`, the number of those columns whose entry falls in bucket `q`. So after `k`
  trips the scratch holds what it held at loop entry plus the number of the first `128 k` columns in each bucket.
-/
import proofs.«100158_j34325378629727_2_alg».proof.Proof.Gen.KernelIdeal.Frame
import proofs.«100158_j34325378629727_2_alg».proof.Proof.Payload
import Idealize.ShloMosaic.Lib.WritesUnit

set_option maxRecDepth 16384

noncomputable section

namespace Cert.Histogram

open Idealize.ShloMosaic Idealize.ShloMosaic.TcCoe Idealize.ShloMosaic.ValueIdx Cert.KernelIdeal Cert.KernelIdeal.Gen
open Idealize.SL Idealize.SL.Sem
open scoped BigOperators

/-- Column `n` of row `p` of a `[128, 4096]` block, `0` past the last column. -/
def colv (X : S128x4096.Idx → EReal) (p : Fin 128) (n : ℕ) : EReal :=
  if h : n < 4096 then X (ix2 p ⟨n, h⟩) else 0

section Trip

variable (𝒱 : Variants) (c : Dev nD) (bd : Option 𝒱.V) (i : grid0.Coords)
  (arg1 : Memref sig .tc .vmem S128x4096 .f32) (harg1 : arg1.IsWhole) (arg2 : Memref sig .tc .vmem S1x202x4 .f32) (harg2 : arg2.IsWhole)
  (arg3 : Memref sig .tc .vmem S128x808 .f32) (harg3 : arg3.IsWhole) (arg4 : Memref sig .tc .vmem S128x256 .f32) (harg4 : arg4.IsWhole)
  (X : BufTy.Contents (Elt Ideal) arg1.view.ty)

/-- The two stores of trip `k`, newest first: the second half of the buckets, then the first half; each the chunk
    payload of the trip's 128 columns and of the half's counts as the trip finds them. -/
theorem trip_pieces (k : Fin k0_t1_loop.trips) (f : BufTy.Contents (Elt Ideal) arg4.view.ty) :
    ∃ (inbB : ∀ a, (![0, 128] : Fin 2 → ℕ) a + (![128, 128] : Fin 2 → ℕ) a ≤ S128x256.size a)
      (inbA : ∀ a, (![0, 0] : Fin 2 → ℕ) a + (![128, 128] : Fin 2 → ℕ) a ≤ S128x256.size a)
      (inbX : ∀ a, (k0_off1 k) a + (![128, 128] : Fin 2 → ℕ) a ≤ S128x4096.size a),
      tripL_k0_t1 (F := Ideal) 𝒱 c bd i arg1 harg1 arg2 harg2 arg3 harg3 arg4 harg4 X k f
        = [(⟨Rect.unit (s := S128x256) ![0, 128] ![128, 128] inbB,
              k0_pay5 (View.readAt (Elt Ideal) arg1.view (Rect.unit (s := S128x4096) (k0_off1 k) ![128, 128] inbX).toLoadRect X)
                (View.readAt (Elt Ideal) arg4.view (Rect.unit (s := S128x256) ![0, 128] ![128, 128] inbB).toLoadRect f)⟩ : View.Piece (Elt Ideal) S128x256 .f32),
           ⟨Rect.unit (s := S128x256) ![0, 0] ![128, 128] inbA,
              k0_pay4 (View.readAt (Elt Ideal) arg1.view (Rect.unit (s := S128x4096) (k0_off1 k) ![128, 128] inbX).toLoadRect X)
                (View.readAt (Elt Ideal) arg4.view (Rect.unit (s := S128x256) ![0, 0] ![128, 128] inbA).toLoadRect f)⟩] := by
  refine ⟨by decide, by decide, k0_off1_inb k, ?_⟩
  unfold tripL_k0_t1 trip_k0_t1
  dsimp only
  unfold trip_k0_t1.sl.v52
  rfl

/-- A `[128, 128]` load of the scratch at columns `[o, o + 128)` reads, at `(p, l)`, the scratch at `(p, o + l)`. -/
theorem readAt_scratch (f : BufTy.Contents (Elt Ideal) arg4.view.ty) (o : ℕ)
    (inb : ∀ a, (![0, o] : Fin 2 → ℕ) a + (![128, 128] : Fin 2 → ℕ) a ≤ S128x256.size a) (p l : Fin 128) (q : Fin 256)
    (hq : q.val = o + l.val) :
    View.readAt (Elt Ideal) arg4.view (Rect.unit (s := S128x256) ![0, o] ![128, 128] inb).toLoadRect f (ix2 p l)
      = arg4.view.read (Elt Ideal) f (ix2 p q) := by
  show arg4.view.read (Elt Ideal) f ((Rect.unit (s := S128x256) ![0, o] ![128, 128] inb).idx (ix2 p l)) = _
  refine congrArg _ (funext fun a => ?_)
  match a with
  | ⟨0, _⟩ => exact Fin.ext (show 0 + 1 * p.val = p.val by omega)
  | ⟨1, _⟩ => exact Fin.ext (show o + 1 * l.val = q.val by omega)

/-- The trip's `[128, 128]` load of the input block reads, at `(p, j)`, column `128 k + j` of row `p`. -/
theorem readAt_chunk (k : Fin k0_t1_loop.trips)
    (inbX : ∀ a, (k0_off1 k) a + (![128, 128] : Fin 2 → ℕ) a ≤ S128x4096.size a) (p j : Fin 128) :
    View.readAt (Elt Ideal) arg1.view (Rect.unit (s := S128x4096) (k0_off1 k) ![128, 128] inbX).toLoadRect X (ix2 p j)
      = colv (arg1.view.read (Elt Ideal) X) p (128 * k.val + j.val) := by
  have hk : k.val < 32 := Nat.lt_of_lt_of_le k.isLt k0_t1_abs.2.1
  have e0 : k0_off1 k (0 : Fin 2) = 0 := by rw [k0_off1_eq]; rfl
  have e1 : k0_off1 k (1 : Fin 2) = 128 * k.val := by rw [k0_off1_eq]; rfl
  have hn : 128 * k.val + j.val < 4096 := by have := j.isLt; omega
  unfold colv
  rw [dif_pos hn]
  show arg1.view.read (Elt Ideal) X ((Rect.unit (s := S128x4096) (k0_off1 k) ![128, 128] inbX).idx (ix2 p j)) = _
  refine congrArg _ (funext fun a => ?_)
  match a with
  | ⟨0, _⟩ => exact Fin.ext (show k0_off1 k (0 : Fin 2) + 1 * p.val = p.val by rw [e0]; omega)
  | ⟨1, _⟩ => exact Fin.ext (show k0_off1 k (1 : Fin 2) + 1 * j.val = 128 * k.val + j.val by rw [e1]; omega)

/-- ONE TRIP adds, to the count of bucket `q` of row `p`, the number of the trip's 128 columns in that bucket. -/
theorem trip_effect (k : Fin k0_t1_loop.trips) (f : BufTy.Contents (Elt Ideal) arg4.view.ty) (p : Fin 128) (q : Fin 256) :
    arg4.view.read (Elt Ideal) (arg4.view.writes (Elt Ideal) f
        (tripL_k0_t1 (F := Ideal) 𝒱 c bd i arg1 harg1 arg2 harg2 arg3 harg3 arg4 harg4 X k f)) (ix2 p q)
      = arg4.view.read (Elt Ideal) f (ix2 p q)
        + ∑ j ∈ Finset.range 128, hit (colv (arg1.view.read (Elt Ideal) X) p (128 * k.val + j)) q.val := by
  obtain ⟨inbB, inbA, inbX, e⟩ := trip_pieces 𝒱 c bd i arg1 harg1 arg2 harg2 arg3 harg3 arg4 harg4 X k f
  rw [e, Finset.sum_range]
  by_cases hq : q.val < 128
  · rw [View.read_writes_cons_unit_of_not_mem arg4.view f inbB _ _ (ix2 p q) rfl (1 : Fin 2) (Or.inl (show q.val < 128 from hq))]
    rw [View.read_writes_cons_unit_of_mem arg4.view f inbA _ [] (ix2 p q) (ix2 p (⟨q.val, hq⟩ : Fin 128)) rfl
      (fun a => by
        match a with
        | ⟨0, _⟩ => exact (show p.val = 0 + p.val by omega)
        | ⟨1, _⟩ => exact (show q.val = 0 + q.val by omega))]
    rw [pay4_apply, readAt_scratch arg4 f 0 inbA p ⟨q.val, hq⟩ q (by show q.val = 0 + q.val; omega)]
    refine congrArg (_ + ·) (Finset.sum_congr rfl fun j _ => ?_)
    rw [readAt_chunk arg1 X k inbX p j]
  · have hq' : q.val - 128 < 128 := by have := q.isLt; omega
    rw [View.read_writes_cons_unit_of_mem arg4.view f inbB _ _ (ix2 p q) (ix2 p (⟨q.val - 128, hq'⟩ : Fin 128)) rfl
      (fun a => by
        match a with
        | ⟨0, _⟩ => exact (show p.val = 0 + p.val by omega)
        | ⟨1, _⟩ => exact (show q.val = 128 + (q.val - 128) by omega))]
    rw [pay5_apply, readAt_scratch arg4 f 128 inbB p ⟨q.val - 128, hq'⟩ q (by show q.val = 128 + (q.val - 128); omega)]
    have hqq : 128 + (q.val - 128) = q.val := by omega
    refine congrArg (_ + ·) (Finset.sum_congr rfl fun j _ => ?_)
    show hit _ (128 + (q.val - 128)) = _
    rw [hqq, readAt_chunk arg1 X k inbX p j]

/-- AFTER `k` TRIPS the count of bucket `q` of row `p` is what the scratch held at loop entry plus the number of the
    first `128 k` columns of row `p` in that bucket: by induction on the trips, one trip at a time. -/
theorem counts_after (G : BufTy.Contents (Elt Ideal) arg4.view.ty) (p : Fin 128) (q : Fin 256) :
    ∀ k : ℕ, k ≤ k0_t1_loop.trips →
      arg4.view.read (Elt Ideal) (arg4.view.writes (Elt Ideal) G
          (pb_k0_t1 (F := Ideal) 𝒱 c bd i arg1 harg1 arg2 harg2 arg3 harg3 arg4 harg4 X G k)) (ix2 p q)
        = arg4.view.read (Elt Ideal) G (ix2 p q)
          + ∑ n ∈ Finset.range (128 * k), hit (colv (arg1.view.read (Elt Ideal) X) p n) q.val
  | 0, _ => by
    rw [pb_k0_t1.eq_1, View.writes_nil, Nat.mul_zero, Finset.sum_range_zero, add_zero]
  | k + 1, hk => by
    have hk' : k < k0_t1_loop.trips := hk
    rw [show pb_k0_t1 (F := Ideal) 𝒱 c bd i arg1 harg1 arg2 harg2 arg3 harg3 arg4 harg4 X G (k + 1) = _ from
      pb_k0_t1_succ (F := Ideal) 𝒱 c bd i arg1 harg1 arg2 harg2 arg3 harg3 arg4 harg4 X G ⟨k, hk'⟩]
    rw [View.writes_append]
    rw [trip_effect 𝒱 c bd i arg1 harg1 arg2 harg2 arg3 harg3 arg4 harg4 X ⟨k, hk'⟩ _ p q]
    rw [counts_after G p q k (Nat.le_of_lt hk'), add_assoc]
    refine congrArg (_ + ·) ?_
    rw [show 128 * (k + 1) = 128 * k + 128 by ring, Finset.sum_range_add]

end Trip

end Cert.Histogram

end
-- ==== Proof.BodySpec.lean ====
/-
  What one run of the body leaves in the output block, stated as a proposition: at row `p` and column `q = 4k + d`
  of the block, `log (1 + number of columns n of row p of the input block whose bucket is k)` times `emb[0, k, d]`.
  The proof of this proposition and its use (from the blocks to the whole array) are in separate modules.
-/
import proofs.«100158_j34325378629727_2_alg».proof.Proof.Gen.KernelIdeal.Frame
import proofs.«100158_j34325378629727_2_alg».proof.Proof.Spec

noncomputable section

namespace Cert.Histogram

open Idealize.ShloMosaic Idealize.ShloMosaic.ValueIdx Cert.KernelIdeal Cert.KernelIdeal.Gen
open scoped BigOperators

/-- The body's result block as a function of its two input blocks, index by index. -/
def blockValue (x0 : S128x4096.Idx → EReal) (x1 : S1x202x4.Idx → EReal) (p : Fin 128) (q : Fin 808) : EReal :=
  Ideal.log1p (∑ n : Fin 4096, hit (x0 (ix2 p n)) (q.val / 4))
    * x1 (ix3 (0 : Fin 1) (⟨q.val / 4, by have := q.isLt; omega⟩ : Fin 202) (⟨q.val % 4, Nat.mod_lt _ (by decide)⟩ : Fin 4))

/-- The body, run on whole staging buffers holding the input blocks `x0` and `x1`, leaves `blockValue x0 x1`. -/
def BodyValue : Prop :=
  ∀ (c : Dev nD) (i : grid0.Coords) (arg1 : Memref sig .tc .vmem S128x4096 .f32) (harg1 : arg1.IsWhole)
    (arg2 : Memref sig .tc .vmem S1x202x4 .f32) (harg2 : arg2.IsWhole) (arg3 : Memref sig .tc .vmem S128x808 .f32) (harg3 : arg3.IsWhole)
    (arg4 : Memref sig .tc .vmem S128x256 .f32) (harg4 : arg4.IsWhole)
    (x0 : Vec Ideal S128x4096 .f32) (x1 : Vec Ideal S1x202x4 .f32) (p : Fin 128) (q : Fin 808),
    out0_A_2 (F := Ideal) c i arg1 harg1 arg2 harg2 arg3 harg3 arg4 harg4 x0 x1 (ix2 p q) = blockValue x0 x1 p q

end Cert.Histogram

end
-- ==== Proof.Body.lean ====
/-
  What one run of the body leaves in the output block.

  The body zeroes the scratch, runs the 32 trips of the chunk loop (after which the scratch holds, for every row and
  bucket, the number of the row's 4096 columns in that bucket), and stores `log (1 + count) · emb` laid out `[128, 808]`.
-/
import proofs.«100158_j34325378629727_2_alg».proof.Proof.Scratch
import proofs.«100158_j34325378629727_2_alg».proof.Proof.BodySpec

set_option maxRecDepth 16384

noncomputable section

namespace Cert.Histogram

open Idealize.ShloMosaic Idealize.ShloMosaic.TcCoe Idealize.ShloMosaic.Tactic Idealize.ShloMosaic.ValueIdx Cert.KernelIdeal Cert.KernelIdeal.Gen
open Idealize.SL Idealize.SL.Sem
open scoped BigOperators

theorem zeros2 : (![0, 0] : Fin 2 → ℕ) = fun _ => 0 := funext fun a => by fin_cases a <;> rfl
theorem zeros3 : (![0, 0, 0] : Fin 3 → ℕ) = fun _ => 0 := funext fun a => by fin_cases a <;> rfl

/-- The epilogue's load of the first 202 columns of the scratch reads, at `(p, k)`, the scratch at `(p, k)`. -/
theorem readAt_counts (arg4 : Memref sig .tc .vmem S128x256 .f32) (f : BufTy.Contents (Elt Ideal) arg4.view.ty)
    (inb : ∀ a, (![0, 0] : Fin 2 → ℕ) a + S128x202.size a ≤ S128x256.size a) (p : Fin 128) (k : Fin 202) (q : Fin 256)
    (hq : q.val = k.val) :
    View.readAt (Elt Ideal) arg4.view (Rect.unit (s := S128x256) ![0, 0] S128x202.size inb).toLoadRect f (ix2 p k)
      = arg4.view.read (Elt Ideal) f (ix2 p q) := by
  show arg4.view.read (Elt Ideal) f ((Rect.unit (s := S128x256) ![0, 0] S128x202.size inb).idx (ix2 p k)) = _
  refine congrArg _ (funext fun a => ?_)
  match a with
  | ⟨0, _⟩ => exact Fin.ext (show 0 + 1 * p.val = p.val by omega)
  | ⟨1, _⟩ => exact Fin.ext (show 0 + 1 * k.val = q.val by omega)

theorem trips_eq : k0_t1_loop.trips = 32 := by decide

/-- One store through the whole-shape rectangle at zero offsets, read back, is its payload. -/
theorem read_writes_unit_zero {sig : RefSig} {κ : Kind} {sp : Space} {S : Shape} {e : EltTy} {Val : EltTy → Type}
    (v : View sig κ sp S e) (f : v.ty.Contents Val) {off : Fin S.rank → ℕ} (h : off = fun _ => 0)
    (inb : ∀ a, off a + S.size a ≤ S.size a) (w : S.Idx → Val e) :
    v.read Val (v.writes Val f [(⟨Rect.unit off S.size inb, w⟩ : View.Piece Val S e)]) = w := by
  subst h
  exact View.read_writes_whole v f w

/-- The body leaves `blockValue` of its two input blocks. -/
theorem body_value : BodyValue := by
  intro c i arg1 harg1 arg2 harg2 arg3 harg3 arg4 harg4 x0 x1 p q
  unfold out0_A_2
  rw [View.read_writes_eq_canon _ _ _ (cover0_A_2 c i arg1 harg1 arg2 harg2 arg3 harg3 arg4 harg4 x0 x1)]
  unfold kernelRun0_A
  dsimp only
  sl_unfold_words
  rw [View.canon_unit_zero zeros2]
  rw [pay6_apply]
  unfold blockValue
  have hk : q.val / 4 < 202 := by have := q.isLt; omega
  have hk256 : q.val / 4 < 256 := by omega
  refine congrArg₂ (fun a b => Ideal.log1p a * b) ?_ ?_
  · rw [readAt_counts arg4 _ _ p ⟨q.val / 4, hk⟩ ⟨q.val / 4, hk256⟩ rfl]
    rw [View.writes_append]
    rw [counts_after Variants.none c none i arg1 harg1 arg2 harg2 arg3 harg3 arg4 harg4 (harg1.unread x0) _ p ⟨q.val / 4, hk256⟩
      k0_t1_loop.trips (le_refl _)]
    rw [read_writes_unit_zero arg4.view _ zeros2]
    rw [pay1_apply, zero_add, harg1.read_unread, trips_eq, Finset.sum_range]
    refine Finset.sum_congr rfl fun n _ => ?_
    unfold colv
    rw [dif_pos n.isLt]
  · rw [View.readAt_eq_ld, harg2.read_unread, View.ld_unit_zero zeros3]

end Cert.Histogram

end
-- ==== Proof.KernelValue.lean ====
/-
  From the blocks to the whole array. The grid has 64 points; point `t` stages rows `128 t … 128 t + 127` of the
  first argument and the whole second argument, and writes back rows `128 t … 128 t + 127` of the result. Given what
  one run of the body leaves in its output block (`BodyValue`), the result array ends holding `G` of the arguments:
  row `r` is covered by point `r / 128`, and the block's value at row `r % 128` reads only that row of the staged block.
-/
import proofs.«100158_j34325378629727_2_alg».proof.Proof.BodySpec
import proofs.«100158_j34325378629727_2_alg».proof.Proof.Gen.KernelIdeal.Value

noncomputable section

namespace Cert.Histogram

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

section Blocks

variable (m : (ℓ : Loc nD τ sig) → Buf (Elt Ideal) ℓ)

/-- The printed index maps, decided over the grid: point `t` stages block row `t` of the first argument and the one block
    of the second, and writes back block row `t` of the result. -/
theorem index_facts : ∀ t : Fin cfg0.N,
    win0_0.index t (0 : Fin 2) = t.val ∧ win0_0.index t (1 : Fin 2) = 0
    ∧ win0_1.index t (0 : Fin 3) = 0 ∧ win0_1.index t (1 : Fin 3) = 0 ∧ win0_1.index t (2 : Fin 3) = 0
    ∧ win0_2.index t (0 : Fin 2) = t.val ∧ win0_2.index t (1 : Fin 2) = 0 :=
  (by decide +kernel : ∀ t : Fin grid0.N, _)

/-- A block's value at row `p` is the whole array's at row `r` when row `p` of the first block is row `r` of the first
    array and the second block is the second array. -/
theorem blockValue_eq_G (cos : SCos.Idx → EReal) (emb : SEmb.Idx → EReal) (x0 : S128x4096.Idx → EReal) (x1 : S1x202x4.Idx → EReal)
    (p : Fin 128) (q : Fin 808) (r : Fin 8192)
    (h0 : ∀ n : Fin 4096, x0 (ix2 p n) = cos (ix2 r n))
    (h1 : ∀ (k : Fin 202) (d : Fin 4), x1 (ix3 (0 : Fin 1) k d) = emb (ix3 (0 : Fin 1) k d)) :
    blockValue x0 x1 p q = G cos emb (ix2 r q) := by
  unfold blockValue G count
  simp only [h0, h1]

/-- The first window's block at point `t` is rows `128 t … 128 t + 127` of the first argument. -/
theorem cos_block (c : Dev nD) (t : Fin cfg0.N) (p : Fin 128) (n : Fin 4096) (r : Fin 8192) (hr : r.val = 128 * t.val + p.val) :
    (iblk m c 0 t : Vec Ideal S128x4096 .f32) (ix2 p n) = (m ((c : Thread nD τ).loc main_arg0) : SCos.Idx → EReal) (ix2 r n) := by
  obtain ⟨e0, e1, -⟩ := index_facts t
  unfold iblk
  rw [View.read_apply]
  show V m c main_arg0 _ = m (c.tc.loc main_arg0) _
  unfold V
  refine congrArg _ ?_
  funext a
  apply Fin.ext
  match a with
  | ⟨0, _⟩ => show win0_0.index t 0 * 128 + 1 * p.val = r.val; rw [e0, hr]; omega
  | ⟨1, _⟩ => show win0_0.index t 1 * 4096 + 1 * n.val = n.val; rw [e1]; omega

/-- The second window's block at every point is the whole second argument. -/
theorem emb_block (c : Dev nD) (t : Fin cfg0.N) (k : Fin 202) (d : Fin 4) :
    (iblk m c 1 t : Vec Ideal S1x202x4 .f32) (ix3 (0 : Fin 1) k d) = (m ((c : Thread nD τ).loc main_arg1) : SEmb.Idx → EReal) (ix3 (0 : Fin 1) k d) := by
  obtain ⟨-, -, e0, e1, e2, -⟩ := index_facts t
  unfold iblk
  rw [View.read_apply]
  show V m c main_arg1 _ = m (c.tc.loc main_arg1) _
  unfold V
  refine congrArg _ ?_
  funext a
  apply Fin.ext
  match a with
  | ⟨0, _⟩ => show win0_1.index t 0 * 1 + 1 * 0 = 0; rw [e0]
  | ⟨1, _⟩ => show win0_1.index t 1 * 202 + 1 * k.val = k.val; rw [e1]; omega
  | ⟨2, _⟩ => show win0_1.index t 2 * 4 + 1 * d.val = d.val; rw [e2]; omega

/-- What point `t` writes back is block `t` of `G` of the arguments. -/
theorem flushed_eq (hbody : BodyValue) (c : Dev nD) (t : Fin cfg0.N) :
    (dats m 0 c).flushed 2 t = ((cfg0.win 2).blk t).view.read (Elt Ideal)
      (G (m ((c : Thread nD τ).loc main_arg0)) (m ((c : Thread nD τ).loc main_arg1))) := by
  rw [Value.flushed2_A]
  funext y
  rw [View.read_apply]
  obtain ⟨-, -, -, -, -, e5, e6⟩ := index_facts t
  have hy0 : (y 0).val < 128 := (y 0).isLt
  have hy1 : (y 1).val < 808 := (y 1).isLt
  have ht : t.val < 64 := lt_of_lt_of_eq t.isLt N_0
  let p : Fin 128 := ⟨(y 0).val, hy0⟩
  let q : Fin 808 := ⟨(y 1).val, hy1⟩
  let r : Fin 8192 := ⟨128 * t.val + (y 0).val, by omega⟩
  have hx : (cfg0.win 2).xinj (grid0.coords t) y = (ix2 p q : S128x808.Idx) := by
    funext a
    match a with
    | ⟨0, _⟩ => rfl
    | ⟨1, _⟩ => rfl
  have he : ((cfg0.win 2).blk t).view.emb y = (ix2 r q : S8192x808.Idx) := by
    funext a
    apply Fin.ext
    match a with
    | ⟨0, _⟩ => show win0_2.index t 0 * 128 + 1 * (y 0).val = 128 * t.val + (y 0).val; rw [e5]; omega
    | ⟨1, _⟩ => show win0_2.index t 1 * 808 + 1 * (y 1).val = (y 1).val; rw [e6]; omega
  refine (congrArg (out0_A_2 (F := Ideal) c (grid0.coords t) (ms0_0 t) (hs0_0 t) (ms0_1 t) (hs0_1 t) (ms0_2 t) (hs0_2 t) scM0_0
    (Memref.isWhole_whole _) (iblk m c 0 t) (iblk m c 1 t)) hx).trans ?_
  refine (hbody c (grid0.coords t) (ms0_0 t) (hs0_0 t) (ms0_1 t) (hs0_1 t) (ms0_2 t) (hs0_2 t) scM0_0
    (Memref.isWhole_whole _) (iblk m c 0 t) (iblk m c 1 t) p q).trans ?_
  show _ = G (m ((c : Thread nD τ).loc main_arg0)) (m ((c : Thread nD τ).loc main_arg1)) (((cfg0.win 2).blk t).view.emb y)
  rw [he]
  exact blockValue_eq_G (m ((c : Thread nD τ).loc main_arg0)) (m ((c : Thread nD τ).loc main_arg1)) (iblk m c 0 t) (iblk m c 1 t) p q r
    (fun n => cos_block m c t p n r rfl) (fun k d => emb_block m c t k d)

/-- An index of the result array is in point `t`'s block iff each coordinate is in the block's range on its axis. -/
theorem mem_block (t : Fin cfg0.N) (i : S8192x808.Idx) :
    i ∈ ((cfg0.win 2).blk t).view.set ↔ ∀ a : Fin 2, win0_2.index t a * S128x808.size a ≤ (i a).val
      ∧ (i a).val < win0_2.index t a * S128x808.size a + S128x808.size a := by
  show i ∈ ((View.whole main_v0).slice (win0_2.rect t)).set ↔ _
  rw [View.set_slice_whole, Rect.mem_set_unit]
  exact Iff.rfl

/-- Every index of the result array is in some point's block: row `r` is in the block of point `r / 128`. -/
theorem cover (i : S8192x808.Idx) : ∃ t : Fin cfg0.N, (cfg0.win 2).flush t = true ∧ i ∈ ((cfg0.win 2).blk t).view.set := by
  have hi0 : (i 0).val < 8192 := (i 0).isLt
  have hi1 : (i 1).val < 808 := (i 1).isLt
  let t : Fin cfg0.N := ⟨(i 0).val / 128, lt_of_lt_of_eq (by omega : (i 0).val / 128 < 64) N_0.symm⟩
  obtain ⟨-, -, -, -, -, e5, e6⟩ := index_facts t
  refine ⟨t, flush0_2 t, ?_⟩
  rw [mem_block]
  intro a
  match a with
  | ⟨0, _⟩ =>
    show win0_2.index t 0 * 128 ≤ (i 0).val ∧ (i 0).val < win0_2.index t 0 * 128 + 128
    rw [e5]
    show (i 0).val / 128 * 128 ≤ (i 0).val ∧ (i 0).val < (i 0).val / 128 * 128 + 128
    omega
  | ⟨1, _⟩ =>
    show win0_2.index t 1 * 808 ≤ (i 1).val ∧ (i 1).val < win0_2.index t 1 * 808 + 808
    rw [e6]
    omega

/-- The result array after the run is `G` of the arguments. -/
theorem final (hbody : BodyValue) (c : Dev nD) :
    (dats m 0 c).arrAt 2 cfg0.N = G (m ((c : Thread nD τ).loc main_arg0)) (m ((c : Thread nD τ).loc main_arg1)) :=
  (dats m 0 c).arrAt_eq_of_cover 2 (G (m ((c : Thread nD τ).loc main_arg0)) (m ((c : Thread nD τ).loc main_arg1)))
    (fun t _ => flushed_eq m hbody c t) cover

end Blocks

/-- The run, read: the result array at `G` of the arguments, the arguments unchanged. -/
theorem kernel_run (hbody : BodyValue) (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ fun r => ∀ c : Dev Cert.KernelIdeal.nD,
      r.2.mem ((c : Thread Cert.KernelIdeal.nD Cert.KernelIdeal.τ).loc Cert.KernelIdeal.main_v0) = G (m ((c : Thread Cert.KernelIdeal.nD Cert.KernelIdeal.τ).loc Cert.KernelIdeal.main_arg0)) (m ((c : Thread Cert.KernelIdeal.nD Cert.KernelIdeal.τ).loc Cert.KernelIdeal.main_arg1))
      ∧ r.2.mem ((c : Thread Cert.KernelIdeal.nD Cert.KernelIdeal.τ).loc Cert.KernelIdeal.main_arg0) = m ((c : Thread Cert.KernelIdeal.nD Cert.KernelIdeal.τ).loc Cert.KernelIdeal.main_arg0)
      ∧ r.2.mem ((c : Thread Cert.KernelIdeal.nD Cert.KernelIdeal.τ).loc Cert.KernelIdeal.main_arg1) = m ((c : Thread Cert.KernelIdeal.nD Cert.KernelIdeal.τ).loc Cert.KernelIdeal.main_arg1) :=
  (θ_run defs _ _).mono (fun r h c => ⟨(h c).1.trans (final m hbody c), (h c).2⟩) (Value.run_blocks m ρ)

end Cert.Histogram

end
-- ==== Proof.RefWord.lean ====
/-
  The reference side, part one: the three float literals as extended reals, and the 32-bit word the
  reference computes from one element of the input.

  For a real `y` with `-1 ≤ y ≤ 1` the product `100 · y` lies in `[-100, 100]`, so its ceiling `z` is an
  integer in `[-100, 100]`: the conversion to a signed 32-bit word does not clamp, adding `100` does not
  wrap, the sum `z + 100` lies in `[0, 200]`, and the negative-index wrap (add `202` where the word is
  negative) leaves it alone.
-/
import proofs.«100158_j34325378629727_2_alg».proof.Proof.Spec

noncomputable section

namespace Cert.Histogram.Ref

open Idealize.ShloMosaic Idealize.ShloMosaic.ValueIdx

/-! ## The literals -/

/-- The pattern `0x42C80000` denotes the real `100`. -/
theorem c100_eq : c100 = ((100 : ℝ) : EReal) := by
  unfold c100
  simp [Ideal.ofBits, Ideal.ieee, -EReal.coe_mul]; norm_num

/-- The pattern `0x00000000` denotes `0`. -/
theorem lit_zero : Ideal.ofBits .f32 0x00000000#32 = 0 := by
  simp [Ideal.ofBits, Ideal.ieee]

/-- The pattern `0x3F800000` denotes `1`. -/
theorem lit_one : Ideal.ofBits .f32 0x3F800000#32 = 1 := by
  simp [Ideal.ofBits, Ideal.ieee, -EReal.coe_mul]; norm_num

/-! ## One element's word -/

/-- The word of one element: the ceiling of `100 · x` converted to a signed 32-bit word, plus `100`. -/
def word (x : EReal) : BitVec 32 :=
  IntOp.addi (Ideal.fptosi 32 (Ideal.liftRound Int.ceil (x * c100))) 100#32

/-- The word after the negative-index wrap: `202` added where it is negative. -/
def wrapped (x : EReal) : BitVec 32 :=
  Scalar.select (IntOp.cmpi .slt (word x) 0#32) (IntOp.addi (word x) 202#32) (word x)

/-- The ceiling of `100 · y` for `y` in `[-1, 1]` is an integer in `[-100, 100]`. -/
theorem ceil_bounds (y : ℝ) (h1 : -1 ≤ y) (h2 : y ≤ 1) : -100 ≤ ⌈y * 100⌉ ∧ ⌈y * 100⌉ ≤ 100 := by
  constructor
  · have h : ((-100 : ℤ) : ℝ) ≤ ((⌈y * 100⌉ : ℤ) : ℝ) :=
      le_trans (by push_cast; linarith) (Int.le_ceil _)
    exact_mod_cast h
  · exact Int.ceil_le.mpr (by push_cast; linarith)

/-- The word of a real in `[-1, 1]`, read signed, is the ceiling plus `100`. -/
theorem word_toInt (y : ℝ) (h1 : -1 ≤ y) (h2 : y ≤ 1) : (word (y : EReal)).toInt = ⌈y * 100⌉ + 100 := by
  obtain ⟨hlo, hhi⟩ := ceil_bounds y h1 h2
  unfold word
  rw [c100_eq, ← EReal.coe_mul, Ideal.liftRound_coe]
  unfold Ideal.fptosi
  rw [Ideal.toIntClamped_coe]
  simp only [Int.floor_intCast, Int.ceil_intCast, ite_self]
  rw [min_eq_right (by norm_num; omega), max_eq_right (by norm_num; omega)]
  show (BitVec.ofInt 32 ⌈y * 100⌉ + BitVec.ofInt 32 100).toInt = _
  rw [← BitVec.ofInt_add, BitVec.toInt_ofInt]
  exact Int.bmod_eq_of_le (by norm_num; omega) (by norm_num; omega)

/-- The wrap leaves the word of a real in `[-1, 1]` alone. -/
theorem wrapped_eq (y : ℝ) (h1 : -1 ≤ y) (h2 : y ≤ 1) : wrapped (y : EReal) = word (y : EReal) := by
  obtain ⟨hlo, hhi⟩ := ceil_bounds y h1 h2
  have hw := word_toInt y h1 h2
  unfold wrapped
  have hc : IntOp.cmpi .slt (word (y : EReal)) 0#32 = 0#1 := by
    show BitVec.ofBool ((word (y : EReal)).slt 0#32) = 0#1
    rw [BitVec.slt_eq_decide, hw]
    have : ¬ (⌈y * 100⌉ + 100 < (0#32 : BitVec 32).toInt) := by
      show ¬ (⌈y * 100⌉ + 100 < 0); omega
    rw [decide_eq_false this]; rfl
  rw [hc, select_zero]

/-- The bucket of a real in `[-1, 1]` is the real of the ceiling plus `100`. -/
theorem bucket_coe (y : ℝ) : bucket (y : EReal) = (((⌈y * 100⌉ + 100 : ℤ) : ℝ) : EReal) := by
  unfold bucket
  rw [c100_eq, ← EReal.coe_mul, Ideal.liftRound_coe, ← EReal.coe_add]
  push_cast; rfl

/-- For a real in `[-1, 1]`: the element falls in bucket `k` exactly when its wrapped word, read signed, is `k`. -/
theorem hit_eq (y : ℝ) (h1 : -1 ≤ y) (h2 : y ≤ 1) (k : ℕ) :
    hit (y : EReal) k = if (wrapped (y : EReal)).toInt = (k : ℤ) then 1 else 0 := by
  unfold hit
  rw [bucket_coe, wrapped_eq y h1 h2, word_toInt y h1 h2]
  refine if_congr ?_ rfl rfl
  rw [EReal.coe_eq_coe_iff]
  constructor
  · intro h; exact_mod_cast h
  · intro h; exact_mod_cast h

end Cert.Histogram.Ref

end
-- ==== Proof.RefIndex.lean ====
/-
  The reference side, part two: the scatter's indices.

  The index array `[8192, 4096, 2]` is the concatenation, along the last axis, of the row numbers and the wrapped
  words, so at `[r, n, 0]` it holds the word of the number `r` and at `[r, n, 1]` the wrapped word of `cos[r, n]`.
  For the scatter's dimension numbers (both operand axes inserted, both named by the index vector, no window axes)
  update `[r', n]` lands on operand element `[r, k]` exactly when the index vector at `[r', n]`, read signed, is `(r, k)`.
-/
import proofs.«100158_j34325378629727_2_alg».proof.Proof.Gen.ReferenceIdeal.Read
import proofs.«100158_j34325378629727_2_alg».proof.Proof.RefWord

noncomputable section

namespace Cert.Histogram.Ref

open Cert.ReferenceIdeal Cert.ReferenceIdeal.Gen Cert.ReferenceIdeal.Read
open Idealize.ShloMosaic Idealize.ShloMosaic.ValueIdx

/-! ## A scatter's result index, in general -/

/-- An update lands on operand element `i` exactly when start plus window coordinate is `i`'s coordinate on every axis. -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  split
  · rename_i h
    constructor
    · intro hf a
      have hf' := Option.some.inj hf
      have e := congrArg (fun f : s.Idx => ((f a).val : ℤ)) hf'
      simp only at e
      have h0 := (h a).1
      omega
    · intro hall
      congr 1
      funext a
      apply Fin.ext
      have e := hall a
      have h0 := (h a).1
      show (d.start j idx a + (d.window j a : ℤ)).toNat = (i a).val
      omega
  · rename_i h
    constructor
    · intro hf; exact absurd hf (by simp)
    · intro hall
      exfalso; apply h; intro a
      have e := hall a
      have hlt : (i a).val < s.size a := (i a).isLt
      constructor <;> omega

/-! ## This program's scatter -/

/-- The dimension numbers of the program's scatter. -/
abbrev D : ScatterDims S8192x202 S8192x4096x2 S8192x4096 := scatter_S8192x202_S8192x4096x2_S8192x4096_n_01_01_2

/-- No window axes: the window coordinate is `0` on both operand axes. -/
theorem window_zero (j : S8192x4096.Idx) (a : Fin 2) : D.window j a = 0 := by
  match a with
  | ⟨0, _⟩ => rfl
  | ⟨1, _⟩ => rfl

/-- The start on the row axis is component `0` of the index vector at the update's position, read signed. -/
theorem start_row (r : Fin 8192) (n : Fin 4096) (idx : IVec S8192x4096x2 32) :
    D.start (ix2 r n) idx (0 : Fin 2) = (idx (ix3 r n (0 : Fin 2))).toInt := by
  unfold ScatterDims.start
  rw [dif_pos (show (0 : Fin 2) ∈ D.scatterDimsToOperandDims from by decide)]
  have hsi : D.siIdx (ix2 r n) ⟨List.idxOf (0 : Fin 2) D.scatterDimsToOperandDims,
      List.idxOf_lt_length_iff.2 (by decide)⟩ = ix3 r n (0 : Fin 2) := by
    funext b; refine Fin.ext ?_
    match b with
    | ⟨0, _⟩ => rfl
    | ⟨1, _⟩ => rfl
    | ⟨2, _⟩ => rfl
  rw [hsi]

/-- The start on the bucket axis is component `1` of the index vector at the update's position, read signed. -/
theorem start_col (r : Fin 8192) (n : Fin 4096) (idx : IVec S8192x4096x2 32) :
    D.start (ix2 r n) idx (1 : Fin 2) = (idx (ix3 r n (1 : Fin 2))).toInt := by
  unfold ScatterDims.start
  rw [dif_pos (show (1 : Fin 2) ∈ D.scatterDimsToOperandDims from by decide)]
  have hsi : D.siIdx (ix2 r n) ⟨List.idxOf (1 : Fin 2) D.scatterDimsToOperandDims,
      List.idxOf_lt_length_iff.2 (by decide)⟩ = ix3 r n (1 : Fin 2) := by
    funext b; refine Fin.ext ?_
    match b with
    | ⟨0, _⟩ => rfl
    | ⟨1, _⟩ => rfl
    | ⟨2, _⟩ => rfl
  rw [hsi]

/-- Update `[r', n]` lands on `[r, k]` exactly when the index vector there, read signed, is `(r, k)`. -/
theorem resultIdx_iff (r' : Fin 8192) (n : Fin 4096) (r : Fin 8192) (k : Fin 202) (idx : IVec S8192x4096x2 32) :
    D.resultIdx? (ix2 r' n) idx = some (ix2 r k) ↔
      (idx (ix3 r' n (0 : Fin 2))).toInt = (r.val : ℤ) ∧ (idx (ix3 r' n (1 : Fin 2))).toInt = (k.val : ℤ) := by
  rw [resultIdx?_eq_some_iff]
  constructor
  · intro h
    have h0 := h (0 : Fin 2)
    have h1 := h (1 : Fin 2)
    rw [start_row, window_zero] at h0
    rw [start_col, window_zero] at h1
    exact ⟨by simpa using h0, by simpa using h1⟩
  · intro ⟨h0, h1⟩ a
    match a with
    | ⟨0, _⟩ =>
      show D.start (ix2 r' n) idx (0 : Fin 2) + (D.window (ix2 r' n) (0 : Fin 2) : ℤ) = (r.val : ℤ)
      rw [start_row, window_zero, h0]; simp
    | ⟨1, _⟩ =>
      show D.start (ix2 r' n) idx (1 : Fin 2) + (D.window (ix2 r' n) (1 : Fin 2) : ℤ) = (k.val : ℤ)
      rw [start_col, window_zero, h1]; simp

end Cert.Histogram.Ref

end
-- ==== Proof.RefSide.lean ====
/-
  The reference side, part three: the reference program's result is the row histogram of the specification.

  At `[r, k]` the scatter adds a `1` for every update `[r', n]` whose index vector is `(r, k)`, onto `0`. The index
  vector's first component is the row number `r'`, so only row `r` contributes, and its second component is the
  wrapped word of `cos[r, n]`, which is `k` exactly when the element falls in bucket `k`: the sum is the number of
  columns of row `r` in bucket `k`. The operations after the scatter take `log (1 + ·)`, multiply by the embedding
  broadcast over the rows, and reshape `[8192, 202, 4]` to `[8192, 808]`: element `[r, q]` reads `[r, q / 4, q % 4]`.
-/
import proofs.«100158_j34325378629727_2_alg».proof.Proof.RefIndex

noncomputable section

namespace Cert.Histogram.Ref

open Cert.ReferenceIdeal Cert.ReferenceIdeal.Gen Cert.ReferenceIdeal.Read
open Idealize.ShloMosaic Idealize.ShloMosaic.ValueIdx
open scoped BigOperators

/-! ## Words of small numbers -/

/-- A number below `8192`, as a 32-bit word read signed, is itself. -/
theorem toInt_ofNat_small (m : ℕ) (h : m < 8192) : (BitVec.ofNat 32 m).toInt = (m : ℤ) := by
  rw [BitVec.toInt_ofNat']
  exact Int.bmod_eq_of_le (by norm_num <;> omega) (by norm_num <;> omega)

/-- The negative-index wrap leaves the word of a row number alone. -/
theorem row_select (m : ℕ) (h : m < 8192) :
    Scalar.select (IntOp.cmpi .slt (BitVec.ofNat 32 m) 0#32) (IntOp.addi (BitVec.ofNat 32 m) 8192#32) (BitVec.ofNat 32 m)
      = BitVec.ofNat 32 m := by
  have hc : IntOp.cmpi .slt (BitVec.ofNat 32 m) 0#32 = 0#1 := by
    show BitVec.ofBool ((BitVec.ofNat 32 m).slt 0#32) = 0#1
    rw [BitVec.slt_eq_decide, toInt_ofNat_small m h]
    have : ¬ ((m : ℤ) < (0#32 : BitVec 32).toInt) := by
      show ¬ ((m : ℤ) < 0); omega
    rw [decide_eq_false this]; rfl
  rw [hc, select_zero]

/-- An extended real between `-1` and `1` is a real between `-1` and `1`. -/
theorem finite_of_bounds (x : EReal) (h1 : (-1 : EReal) ≤ x) (h2 : x ≤ 1) :
    ∃ y : ℝ, x = (y : EReal) ∧ -1 ≤ y ∧ y ≤ 1 := by
  have e1 : ((-1 : ℝ) : EReal) = -1 := by rw [EReal.coe_neg, EReal.coe_one]
  induction x using EReal.rec with
  | bot =>
    rw [← e1] at h1
    exact absurd h1 (not_le.mpr (EReal.bot_lt_coe (-1)))
  | top =>
    rw [← EReal.coe_one] at h2
    exact absurd h2 (not_le.mpr (EReal.coe_lt_top 1))
  | coe y =>
    refine ⟨y, rfl, ?_, ?_⟩
    · rw [← e1] at h1
      exact EReal.coe_le_coe_iff.mp h1
    · rw [← EReal.coe_one] at h2
      exact EReal.coe_le_coe_iff.mp h2

/-! ## The index array -/

/-- At `[r, n, 0]` the index array holds the word of the row number. -/
theorem v22_row (cos : FVec Ideal S8192x4096 .f32) (r : Fin 8192) (n : Fin 4096) :
    val_main_v22 (F := Ideal) cos (ix3 r n (0 : Fin 2)) = BitVec.ofNat 32 r.val := by
  unfold val_main_v22
  refine (concatenate_pair_apply_left (t := S8192x4096x2) (s₁ := S8192x4096x1) (s₂ := S8192x4096x1) (2 : Fin 3) _ _ _
    (ix3 r n (0 : Fin 2)) rfl (ix3 r n (0 : Fin 1))
    (fun b => by
      match b with
      | ⟨0, _⟩ => rfl
      | ⟨1, _⟩ => rfl
      | ⟨2, _⟩ => rfl)).trans ?_
  rw [val_main_v20_apply, val_main_v19_apply, val_main_v13_apply, val_main_v10_apply, val_main_v12_apply,
    val_main_v7_apply, val_main_v9_apply, val_main_v11_apply, val_main_c_1_apply, val_main_c_2_apply, val_main_v6_apply]
  exact row_select r.val r.isLt

/-- At `[r, n, 1]` the index array holds the wrapped word of `cos[r, n]`. -/
theorem v22_col (cos : FVec Ideal S8192x4096 .f32) (r : Fin 8192) (n : Fin 4096) :
    val_main_v22 (F := Ideal) cos (ix3 r n (1 : Fin 2)) = wrapped (cos (ix2 r n)) := by
  unfold val_main_v22
  refine (concatenate_pair_apply_right (t := S8192x4096x2) (s₁ := S8192x4096x1) (s₂ := S8192x4096x1) (2 : Fin 3) _ _ _
    (ix3 r n (1 : Fin 2)) rfl rfl (ix3 r n (0 : Fin 1))
    (fun b => by
      match b with
      | ⟨0, _⟩ => exact fun _ => rfl
      | ⟨1, _⟩ => exact fun _ => rfl
      | ⟨2, _⟩ => exact fun h => absurd rfl h)
    rfl).trans ?_
  rw [val_main_v21_apply, val_main_v18_apply, val_main_v15_apply, val_main_v17_apply, val_main_v5_apply,
    val_main_v14_apply, val_main_v16_apply, val_main_v3_apply, val_main_v4_apply, val_main_v2_apply, val_main_v1_apply,
    val_main_v0_apply, val_main_cst_apply, val_main_c_apply, val_main_c_3_apply, val_main_c_4_apply]
  have hidx : idx_main_v21 (ix3 r n (0 : Fin 1)) = ix2 r n := by
    funext a
    match a with
    | ⟨0, _⟩ => rfl
    | ⟨1, _⟩ => rfl
  rw [hidx]
  rfl

/-! ## The scatter -/

/-- The scatter's value at `[r, k]` is the number of columns of row `r` in bucket `k`. -/
theorem v24_eq (cos : FVec Ideal S8192x4096 .f32) (hb : ∀ i, (-1 : EReal) ≤ cos i ∧ cos i ≤ 1)
    (r : Fin 8192) (k : Fin 202) :
    val_main_v24 (F := Ideal) cos (ix2 r k) = count cos r k.val := by
  unfold val_main_v24 Host.scatterAdd
  rw [Ideal.hostScatterAdd_def]
  unfold Ideal.hostScatterAdd
  rw [val_main_v8_apply, val_main_cst_0_apply, Ideal.ofBits_def, lit_zero, zero_add, Finset.sum_filter, sum_idx2]
  unfold count
  rw [Finset.sum_eq_single r]
  · refine Finset.sum_congr rfl fun n _ => ?_
    obtain ⟨y, hy, h1, h2⟩ := finite_of_bounds _ (hb (ix2 r n)).1 (hb (ix2 r n)).2
    rw [val_main_v23_apply, val_main_cst_5_apply, Ideal.ofBits_def, lit_one, hy, hit_eq y h1 h2]
    refine if_congr ?_ rfl rfl
    rw [resultIdx_iff, v22_row, v22_col, hy, toInt_ofNat_small r.val r.isLt]
    exact ⟨fun h => h.2, fun h => ⟨rfl, h⟩⟩
  · intro a _ hne
    refine Finset.sum_eq_zero fun n _ => ?_
    rw [if_neg]
    rw [resultIdx_iff, v22_row, toInt_ofNat_small a.val a.isLt]
    intro h
    exact hne (Fin.ext (by exact_mod_cast h.1))
  · intro h; exact absurd (Finset.mem_univ r) h

end Cert.Histogram.Ref

namespace Cert.Histogram

open Cert.ReferenceIdeal Cert.ReferenceIdeal.Gen Cert.ReferenceIdeal.Read
open Idealize.ShloMosaic Idealize.ShloMosaic.ValueIdx

/-- The reference program's result is the specification's row histogram. -/
theorem reference_eq (cos : FVec Ideal Cert.ReferenceIdeal.S8192x4096 .f32) (emb : FVec Ideal Cert.ReferenceIdeal.S1x202x4 .f32)
    (hb : ∀ i, (-1 : EReal) ≤ cos i ∧ cos i ≤ 1) :
    Cert.ReferenceIdeal.Read.val_main_v30 (F := Ideal) cos emb = G cos emb := by
  funext i
  have h0 : (i 0).val < 8192 := idx2_lt0 i
  have h1 : (i 1).val < 808 := idx2_lt1 i
  rw [val_main_v30_apply, val_main_v29_apply, val_main_v27_apply, val_main_v26_apply, val_main_v25_apply,
    val_main_v28_apply]
  have hA : idx_main_v26 (idx_main_v27 (idx_main_v30 i))
      = ix2 (⟨(i 0).val, h0⟩ : Fin 8192) (⟨(i 1).val / 4, by omega⟩ : Fin 202) := by
    funext a
    match a with
    | ⟨0, _⟩ =>
      apply Fin.ext
      show ((i 0).val * 808 + (i 1).val) / 808 = (i 0).val
      omega
    | ⟨1, _⟩ =>
      apply Fin.ext
      show ((i 0).val * 808 + (i 1).val) / 4 % 202 = (i 1).val / 4
      omega
  have hB : idx_main_v28 (idx_main_v30 i)
      = ix3 (0 : Fin 1) (⟨(i 1).val / 4, by omega⟩ : Fin 202) (⟨(i 1).val % 4, Nat.mod_lt _ (by decide)⟩ : Fin 4) := by
    funext a
    match a with
    | ⟨0, _⟩ => rfl
    | ⟨1, _⟩ =>
      apply Fin.ext
      show ((i 0).val * 808 + (i 1).val) / 4 % 202 = (i 1).val / 4
      omega
    | ⟨2, _⟩ =>
      apply Fin.ext
      show ((i 0).val * 808 + (i 1).val) % 4 = (i 1).val % 4
      omega
  rw [hA, hB, Ref.v24_eq cos hb]
  rfl

end Cert.Histogram

end
-- ==== Proof.Domain.lean ====
/-
  The precondition read back: an argument pair on which the printed predicate returns 1 has every entry of its first
  array between minus one and one.
-/
import proofs.«100158_j34325378629727_2_alg».proof.Pre_finite_inputs
import Idealize.ShloMosaic.Lib.ReduceAll
import Idealize.ShloMosaic.Lib.IdealHost

namespace Cert.Histogram

open Idealize.ShloMosaic Idealize.ShloMosaic.ValueIdx

/-- The f32 pattern `0xBF800000` is the extended real minus one. -/
theorem ofBits_neg_one_f32 : Ideal.ofBits .f32 0xBF800000#32 = (-1 : EReal) := by
  rw [show (-1 : EReal) = ((-(1 : ℝ) : ℝ) : EReal) by rw [EReal.coe_neg, EReal.coe_one]]
  simp [Ideal.ofBits, Ideal.ieee, -EReal.coe_mul, -EReal.coe_neg]; norm_num

/-- The shape of rank zero has one index. -/
instance : Subsingleton Cert.Pre_finite_inputs.S_.Idx := ⟨fun a b => funext fun d => d.elim0⟩

theorem cos_bounds [Cert.Pre_finite_inputs.Facts] (cos : FVec Ideal Cert.Pre_finite_inputs.S8192x4096 .f32) (emb : FVec Ideal Cert.Pre_finite_inputs.S1x202x4 .f32)
    (h : Cert.Pre_finite_inputs.fn (F := Ideal) cos emb = fun _ => 1#1) :
    ∀ i, (-1 : EReal) ≤ cos i ∧ cos i ≤ 1 := by
  intro i
  have h0 := congrFun h ValueIdx.ix0
  dsimp only [Cert.Pre_finite_inputs.fn, Cert.Pre_finite_inputs.fn_part1] at h0
  obtain ⟨h12, h15⟩ := IntOp.andi_eq_one.1 h0
  obtain ⟨_, h11⟩ := IntOp.andi_eq_one.1 h12
  have ge := Host.reduce_andi_all _ _ _ _ _ h11 i
  have le := Host.reduce_andi_all _ _ _ _ _ h15 i
  rw [cmpf_apply, broadcastInDim_scalar_apply, constant_apply, Ideal.cmpf_def, ofBits_neg_one_f32] at ge
  rw [cmpf_apply, broadcastInDim_scalar_apply, constant_apply, Ideal.cmpf_def, Ideal.ofBits_one_f32] at le
  constructor
  · by_contra hn
    simp [Ideal.cmp, hn] at ge
  · by_contra hn
    simp [Ideal.cmp, hn] at le

end Cert.Histogram
-- ==== Proof.lean ====
/-
  A per-row histogram of bucketed cosines, scaled by a learned embedding: the kernel and its reference agree on the
  extended reals.

  For `cosine : [8192, 4096]` with entries in `[-1, 1]` and `emb : [1, 202, 4]`, the bucket of an entry `x` is
  `⌈100 x⌉ + 100`, a whole number between `0` and `200`. Both programs compute, for every row `r` and bucket `k < 202`,
  the number `count r k` of columns of row `r` whose entry falls in bucket `k`, and return
  `log (1 + count r k) · emb[0, k, d]` at `[r, 4 k + d]`.

  The kernel walks the row block in 32 chunks of 128 columns; per chunk it compares every entry's bucket with the
  256 lane numbers, sums the resulting ones and zeros over the chunk's columns and adds them to running counts that
  start at zero; the first 202 counts enter the logarithm. The sum over 32 chunks of 128 columns is the sum over the
  4096 columns (addition of extended reals is associative and commutative; every summand is `0` or `1`).

  The reference converts the bucket to a 32-bit integer, adds `202` to a negative one, and scatters a `1` per column to
  `[row, bucket]`, dropping what falls outside `[0, 202)`. For entries in `[-1, 1]` the product `100 x` lies in
  `[-100, 100]`, so the conversion is exact, the integer sum does not wrap, the bucket is never negative and always in
  range: the scatter's sum at `[r, k]` is `count r k`. Outside `[-1, 1]` the two programs differ (the reference wraps
  a negative bucket round, the kernel's comparison of numbers never meets it), which is why the bounds on `cosine`
  are part of the precondition; nothing is assumed of `emb`.

  The frames are the generated ones; the idealization rewrote nothing, so `preserves` is trivial.
-/
import proofs.«100158_j34325378629727_2_alg».proof.Defs
import proofs.«100158_j34325378629727_2_alg».proof.Proof.Gen.Kernel
import proofs.«100158_j34325378629727_2_alg».proof.Proof.Gen.Kernel.Skeleton
import proofs.«100158_j34325378629727_2_alg».proof.Proof.Gen.Kernel.Loops
import proofs.«100158_j34325378629727_2_alg».proof.Proof.Gen.Kernel.Launch
import proofs.«100158_j34325378629727_2_alg».proof.Proof.Gen.Kernel.Points
import proofs.«100158_j34325378629727_2_alg».proof.Proof.Gen.Kernel.Frame
import proofs.«100158_j34325378629727_2_alg».proof.Proof.Gen.KernelIdeal
import proofs.«100158_j34325378629727_2_alg».proof.Proof.Gen.KernelIdeal.Skeleton
import proofs.«100158_j34325378629727_2_alg».proof.Proof.Gen.KernelIdeal.Loops
import proofs.«100158_j34325378629727_2_alg».proof.Proof.Gen.KernelIdeal.Launch
import proofs.«100158_j34325378629727_2_alg».proof.Proof.Gen.KernelIdeal.Points
import proofs.«100158_j34325378629727_2_alg».proof.Proof.Gen.KernelIdeal.Frame
import proofs.«100158_j34325378629727_2_alg».proof.Proof.Gen.KernelIdeal.Value
import proofs.«100158_j34325378629727_2_alg».proof.Proof.Gen.ReferenceIdeal
import proofs.«100158_j34325378629727_2_alg».proof.Proof.Gen.ReferenceIdeal.Run
import proofs.«100158_j34325378629727_2_alg».proof.Proof.Gen.ReferenceIdeal.Read
import proofs.«100158_j34325378629727_2_alg».proof.Proof.Gen.Pre_finite_inputs
import Idealize.ShloMosaic.Adequacy
import Idealize.ShloMosaic.Init

import proofs.«100158_j34325378629727_2_alg».proof.Proof.Body
import proofs.«100158_j34325378629727_2_alg».proof.Proof.KernelValue
import proofs.«100158_j34325378629727_2_alg».proof.Proof.RefSide
import proofs.«100158_j34325378629727_2_alg».proof.Proof.Domain

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at `Histogram.G` of the argument arrays: the kernel's by the body's block value
    carried over the 64 row blocks, the reference's by reading its scatter as a count, which needs the entries of
    `cosine` in `[-1, 1]` (the precondition). -/
theorem algebraic : Cert.algebraic_KernelIdeal_ReferenceIdeal := by
  intro m ρ m' ρ' hpre hagree
  refine ⟨fun c => Cert.Histogram.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.Histogram.kernel_run Cert.Histogram.body_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, (hagree c).1, (hagree c).2]
  exact Cert.Histogram.reference_eq _ _ (Cert.Histogram.cos_bounds _ _ (hpre c))

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
